-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1024x4096 : Shape := ⟨3, ![2, 1024, 4096]⟩
abbrev S11008x4096 : Shape := ⟨2, ![11008, 4096]⟩
abbrev S11008 : Shape := ⟨1, ![11008]⟩
abbrev S4096x11008 : Shape := ⟨2, ![4096, 11008]⟩
abbrev S4096 : Shape := ⟨1, ![4096]⟩
abbrev S_ : Shape := ⟨0, ![]⟩

class Facts : Prop where
  bcast_S_S2x1024x4096 : S_.BroadcastsInDim S2x1024x4096 (![] : Fin 0 → Fin S2x1024x4096.rank)
  reducesTo_S2x1024x4096_S_d0_1_2 : S2x1024x4096.ReducesTo [0, 1, 2] S_
  h_S_ : 0 < S_.numel
  bcast_S_S11008 : S_.BroadcastsInDim S11008 (![] : Fin 0 → Fin S11008.rank)
  reducesTo_S11008_S_d0 : S11008.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S2x1024x4096 .f32) (main_arg1 : IVec S11008x4096 32) (main_arg2 : FVec F S11008 .f32) (main_arg3 : IVec S11008x4096 32) (main_arg4 : FVec F S11008 .f32) (main_arg5 : IVec S4096x11008 32) (main_arg6 : FVec F S4096 .f32) : IVec S_ 1 :=
  let main_v0 : FVec F S2x1024x4096 .f32 := Host.absf main_arg0
  let main_cst : FVec F S_ .f32 := constant S_ .f32 0x7F800000#32
  let main_v1 : FVec F S2x1024x4096 .f32 := broadcastInDim S2x1024x4096 ![] bcast_S_S2x1024x4096 main_cst
  let main_v2 : IVec S2x1024x4096 1 := cmpf .olt main_v0 main_v1
  let main_c : IVec S_ 1 := constantI S_ 1 1#1
  let main_v3 : IVec S_ 1 := (fun x v => Host.reduce IntOp.andi x v reducesTo_S2x1024x4096_S_d0_1_2 h_S_) main_v2 main_c
  let main_v4 : FVec F S11008 .f32 := Host.absf main_arg2
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  let main_v9 : FVec F S11008 .f32 := Host.absf main_arg4
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  let main_v14 : FVec F S4096 .f32 := Host.absf main_arg6
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S2x1024x4096 : Shape := ⟨3, ![2, 1024, 4096]⟩
abbrev S11008x4096 : Shape := ⟨2, ![11008, 4096]⟩
abbrev S11008 : Shape := ⟨1, ![11008]⟩
abbrev S4096x11008 : Shape := ⟨2, ![4096, 11008]⟩
abbrev S4096 : Shape := ⟨1, ![4096]⟩
abbrev S2048x4096 : Shape := ⟨2, ![2048, 4096]⟩
abbrev S1x11008 : Shape := ⟨2, ![1, 11008]⟩
abbrev S1x4096 : Shape := ⟨2, ![1, 4096]⟩
abbrev S128x4096 : Shape := ⟨2, ![128, 4096]⟩
abbrev S1x128 : Shape := ⟨2, ![1, 128]⟩
abbrev S4096x128 : Shape := ⟨2, ![4096, 128]⟩
abbrev S128x128 : Shape := ⟨2, ![128, 128]⟩

abbrev nBuf : Space → Nat
  | .hbm => 13
  | .vmem => 16
  | .smem => 0
  | _ => 0

abbrev bufTy : (tb : Table) → Fin (tcTables nBuf tb) → BufTy
  | .hbm, ⟨0, _⟩ => ⟨S2x1024x4096, .f32⟩
  | .hbm, ⟨1, _⟩ => ⟨S11008x4096, .i32⟩
  | .hbm, ⟨2, _⟩ => ⟨S11008, .f32⟩
  | .hbm, ⟨3, _⟩ => ⟨S11008x4096, .i32⟩
  | .hbm, ⟨4, _⟩ => ⟨S11008, .f32⟩
  | .hbm, ⟨5, _⟩ => ⟨S4096x11008, .i32⟩
  | .hbm, ⟨6, _⟩ => ⟨S4096, .f32⟩
  | .hbm, ⟨7, _⟩ => ⟨S2048x4096, .f32⟩
  | .hbm, ⟨8, _⟩ => ⟨S1x11008, .f32⟩
  | .hbm, ⟨9, _⟩ => ⟨S1x11008, .f32⟩
  | .hbm, ⟨10, _⟩ => ⟨S1x4096, .f32⟩
  | .hbm, ⟨11, _⟩ => ⟨S2048x4096, .f32⟩
  | .hbm, ⟨12, _⟩ => ⟨S2x1024x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .i32⟩
  | .local _ .vmem, ⟨3, _⟩ => ⟨S128x4096, .i32⟩
  | .local _ .vmem, ⟨4, _⟩ => ⟨S1x128, .f32⟩
  | .local _ .vmem, ⟨5, _⟩ => ⟨S1x128, .f32⟩
  | .local _ .vmem, ⟨6, _⟩ => ⟨S128x4096, .i32⟩
  | .local _ .vmem, ⟨7, _⟩ => ⟨S128x4096, .i32⟩
  | .local _ .vmem, ⟨8, _⟩ => ⟨S1x128, .f32⟩
  | .local _ .vmem, ⟨9, _⟩ => ⟨S1x128, .f32⟩
  | .local _ .vmem, ⟨10, _⟩ => ⟨S4096x128, .i32⟩
  | .local _ .vmem, ⟨11, _⟩ => ⟨S4096x128, .i32⟩
  | .local _ .vmem, ⟨12, _⟩ => ⟨S1x4096, .f32⟩
  | .local _ .vmem, ⟨13, _⟩ => ⟨S128x4096, .f32⟩
  | .local _ .vmem, ⟨14, _⟩ => ⟨S128x4096, .f32⟩
  | .local _ .vmem, ⟨15, _⟩ => ⟨S128x4096, .f32⟩
  | _, _ => ⟨S2x1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 86], ![false, false]⟩

def k0_cond2 (i : grid0.Coords) : BitVec 1 :=
  let arg1 : BitVec 32 := BitVec.ofNat 32 (i 1).val
  let c85_i32 : BitVec 32 := 85#32
  let v41 : BitVec 1 := Scalar.cmpi .eq arg1 c85_i32
  let v42 : BitVec 32 := Scalar.extui v41
  let c0_i32_21 : BitVec 32 := 0#32
  let v43 : BitVec 1 := Scalar.cmpi .ne v42 c0_i32_21
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x4096 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4096x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S2x1024x4096_S2048x4096 : S2x1024x4096.ShapeCasts S2048x4096
  shapeCasts_S11008_S1x11008 : S11008.ShapeCasts S1x11008
  shapeCasts_S4096_S1x4096 : S4096.ShapeCasts S1x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  inb_S4096x128_S4096x128_0_0 : ∀ a, (![0, 0] : Fin 2 → Nat) a + S4096x128.size a ≤ S4096x128.size a
  h_S4096x128 : 0 < S4096x128.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  shapeCasts_S2048x4096_S2x1024x4096 : S2048x4096.ShapeCasts S2x1024x4096
  dot_S128x4096_S128x4096_S128x128_1_1_0_0_n_n_wf : DotDims.WF S128x4096 S128x4096 S128x128 [1] [1] [0] [0] [] []
  dot_S128x128_S4096x128_S128x4096_1_1_0_0_n_n_wf : DotDims.WF S128x128 S4096x128 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S2048x4096.size a
  hwx0_0 : ∀ i : grid0.Coords, EltTy.bits .f32 = 32 ∨ (Rect.block (s := S2048x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S11008x4096.size a
  hwx0_1 : ∀ i : grid0.Coords, EltTy.bits .i32 = 32 ∨ (Rect.block (s := S11008x4096) S128x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x11008.size a
  hwx0_2 : ∀ i : grid0.Coords, EltTy.bits .f32 = 32 ∨ (Rect.block (s := S1x11008) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S11008x4096.size a
  hwx0_3 : ∀ i : grid0.Coords, EltTy.bits .i32 = 32 ∨ (Rect.block (s := S11008x4096) S128x4096.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x11008.size a
  hwx0_4 : ∀ i : grid0.Coords, EltTy.bits .f32 = 32 ∨ (Rect.block (s := S1x11008) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S4096x11008.size a
  hwx0_5 : ∀ i : grid0.Coords, EltTy.bits .i32 = 32 ∨ (Rect.block (s := S4096x11008) S4096x128.size (cc0_transform_5 i) (hinb0_5 i)).WholeWords (EltTy.packing .i32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x4096.size a ≤ S2048x4096.size a
  hwx0_7 : ∀ i : grid0.Coords, EltTy.bits .f32 = 32 ∨ (Rect.block (s := S2048x4096) S128x4096.size (cc0_transform_7 i) (hinb0_7 i)).WholeWords (EltTy.packing .f32)

variable [Facts₀]

def dot_S128x4096_S128x4096_S128x128_1_1_0_0_n_n : DotDims S128x4096 S128x4096 S128x128 where
  lhsContracting := [1]
  rhsContracting := [1]
  lhsNonContracting := [0]
  rhsNonContracting := [0]
  lhsBatch := []
  rhsBatch := []
  wf := dot_S128x4096_S128x4096_S128x128_1_1_0_0_n_n_wf
def dot_S128x128_S4096x128_S128x4096_1_1_0_0_n_n : DotDims S128x128 S4096x128 S128x4096 where
  lhsContracting := [1]
  rhsContracting := [1]
  lhsNonContracting := [0]
  rhsNonContracting := [0]
  lhsBatch := []
  rhsBatch := []
  wf := dot_S128x128_S4096x128_S128x4096_1_1_0_0_n_n_wf

abbrev win0_0 : Pipeline.Window sig grid0 :=
  Pipeline.Window.ofSpec (Memref.whole main_v0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4096x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S128x4096.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S2x1024x4096 : Shape := ⟨3, ![2, 1024, 4096]⟩
abbrev S11008x4096 : Shape := ⟨2, ![11008, 4096]⟩
abbrev S11008 : Shape := ⟨1, ![11008]⟩
abbrev S4096x11008 : Shape := ⟨2, ![4096, 11008]⟩
abbrev S4096 : Shape := ⟨1, ![4096]⟩
abbrev S2048x4096 : Shape := ⟨2, ![2048, 4096]⟩
abbrev S2048x11008 : Shape := ⟨2, ![2048, 11008]⟩
abbrev S1x11008 : Shape := ⟨2, ![1, 11008]⟩
abbrev S_ : Shape := ⟨0, ![]⟩
abbrev S1x4096 : Shape := ⟨2, ![1, 4096]⟩

abbrev nBuf : Space → Nat
  | .hbm => 34
  | .vmem => 0
  | .smem => 0
  | _ => 0

abbrev bufTy : (tb : Table) → Fin (tcTables nBuf tb) → BufTy
  | .hbm, ⟨0, _⟩ => ⟨S2x1024x4096, .f32⟩
  | .hbm, ⟨1, _⟩ => ⟨S11008x4096, .i32⟩
  | .hbm, ⟨2, _⟩ => ⟨S11008, .f32⟩
  | .hbm, ⟨3, _⟩ => ⟨S11008x4096, .i32⟩
  | .hbm, ⟨4, _⟩ => ⟨S11008, .f32⟩
  | .hbm, ⟨5, _⟩ => ⟨S4096x11008, .i32⟩
  | .hbm, ⟨6, _⟩ => ⟨S4096, .f32⟩
  | .hbm, ⟨7, _⟩ => ⟨S2048x4096, .f32⟩
  | .hbm, ⟨8, _⟩ => ⟨S11008x4096, .f32⟩
  | .hbm, ⟨9, _⟩ => ⟨S2048x11008, .f32⟩
  | .hbm, ⟨10, _⟩ => ⟨S1x11008, .f32⟩
  | .hbm, ⟨11, _⟩ => ⟨S2048x11008, .f32⟩
  | .hbm, ⟨12, _⟩ => ⟨S2048x11008, .f32⟩
  | .hbm, ⟨13, _⟩ => ⟨S11008x4096, .f32⟩
  | .hbm, ⟨14, _⟩ => ⟨S2048x11008, .f32⟩
  | .hbm, ⟨15, _⟩ => ⟨S1x11008, .f32⟩
  | .hbm, ⟨16, _⟩ => ⟨S2048x11008, .f32⟩
  | .hbm, ⟨17, _⟩ => ⟨S2048x11008, .f32⟩
  | .hbm, ⟨18, _⟩ => ⟨S2048x11008, .f32⟩
  | .hbm, ⟨19, _⟩ => ⟨S2048x11008, .f32⟩
  | .hbm, ⟨20, _⟩ => ⟨S_, .f32⟩
  | .hbm, ⟨21, _⟩ => ⟨S2048x11008, .f32⟩
  | .hbm, ⟨22, _⟩ => ⟨S2048x11008, .f32⟩
  | .hbm, ⟨23, _⟩ => ⟨S_, .f32⟩
  | .hbm, ⟨24, _⟩ => ⟨S2048x11008, .f32⟩
  | .hbm, ⟨25, _⟩ => ⟨S2048x11008, .f32⟩
  | .hbm, ⟨26, _⟩ => ⟨S2048x11008, .f32⟩
  | .hbm, ⟨27, _⟩ => ⟨S2048x11008, .f32⟩
  | .hbm, ⟨28, _⟩ => ⟨S4096x11008, .f32⟩
  | .hbm, ⟨29, _⟩ => ⟨S2048x4096, .f32⟩
  | .hbm, ⟨30, _⟩ => ⟨S1x4096, .f32⟩
  | .hbm, ⟨31, _⟩ => ⟨S2048x4096, .f32⟩
  | .hbm, ⟨32, _⟩ => ⟨S2048x4096, .f32⟩
  | .hbm, ⟨33, _⟩ => ⟨S2x1024x4096, .f32⟩
  | _, _ => ⟨S2x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩

abbrev nD : Nat := 1
abbrev τ : Topo := Topo.v7x

variable {F : FTy → Type} [FloatOps F]

class Facts₀ : Prop where
  shapeCasts_S2x1024x4096_S2048x4096 : S2x1024x4096.ShapeCasts S2048x4096
  bcast_S11008_S1x11008_1 : S11008.BroadcastsInDim S1x11008 (![1] : Fin 1 → Fin S1x11008.rank)
  bcast_S1x11008_S2048x11008_0_1 : S1x11008.BroadcastsInDim S2048x11008 (![0, 1] : Fin 2 → Fin S2048x11008.rank)
  bcast_S_S2048x11008 : S_.BroadcastsInDim S2048x11008 (![] : Fin 0 → Fin S2048x11008.rank)
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  shapeCasts_S2048x4096_S2x1024x4096 : S2048x4096.ShapeCasts S2x1024x4096
  dot_S2048x4096_S11008x4096_S2048x11008_1_1_0_0_n_n_wf : DotDims.WF S2048x4096 S11008x4096 S2048x11008 [1] [1] [0] [0] [] []
  dot_S2048x11008_S4096x11008_S2048x4096_1_1_0_0_n_n_wf : DotDims.WF S2048x11008 S4096x11008 S2048x4096 [1] [1] [0] [0] [] []

variable [Facts₀]

def dot_S2048x4096_S11008x4096_S2048x11008_1_1_0_0_n_n : DotDims S2048x4096 S11008x4096 S2048x11008 where
  lhsContracting := [1]
  rhsContracting := [1]
  lhsNonContracting := [0]
  rhsNonContracting := [0]
  lhsBatch := []
  rhsBatch := []
  wf := dot_S2048x4096_S11008x4096_S2048x11008_1_1_0_0_n_n_wf
def dot_S2048x11008_S4096x11008_S2048x4096_1_1_0_0_n_n : DotDims S2048x11008 S4096x11008 S2048x4096 where
  lhsContracting := [1]
  rhsContracting := [1]
  lhsNonContracting := [0]
  rhsNonContracting := [0]
  lhsBatch := []
  rhsBatch := []
  wf := dot_S2048x11008_S4096x11008_S2048x4096_1_1_0_0_n_n_wf

class Facts : Prop extends Facts₀ where

variable [Facts]
-- ==== Proof.KernelPieces.lean ====
/-
  What the body leaves behind, case by case, as values. The accumulator is stored whole once per grid point, so what it
  holds afterwards is that one store's value: at the first block of hidden channels the zero block plus the tile's
  product, at every later block what the point before left plus the tile's product. At the last block the output's
  staging buffer receives the accumulator just stored, times the output scales repeated over the rows.
-/
import proofs.«145805_j59072980189198_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First block of hidden channels: the accumulator ends at the zero block plus the tile's product. -/
theorem acc_first (c : Dev nD) (i : grid0.Coords) (arg2 : Memref sig .tc .vmem S128x4096 .f32) (harg2 : arg2.IsWhole) (arg3 : Memref sig .tc .vmem S128x4096 .i32) (harg3 : arg3.IsWhole) (arg4 : Memref sig .tc .vmem S1x128 .f32) (harg4 : arg4.IsWhole) (arg5 : Memref sig .tc .vmem S128x4096 .i32) (harg5 : arg5.IsWhole) (arg6 : Memref sig .tc .vmem S1x128 .f32) (harg6 : arg6.IsWhole) (arg7 : Memref sig .tc .vmem S4096x128 .i32) (harg7 : arg7.IsWhole) (arg8 : Memref sig .tc .vmem S1x4096 .f32) (harg8 : arg8.IsWhole) (arg9 : Memref sig .tc .vmem S128x4096 .f32) (harg9 : arg9.IsWhole) (arg10 : Memref sig .tc .vmem S128x4096 .f32) (harg10 : arg10.IsWhole) (hc0 : cond0_0 i) (hc1 : ¬cond0_1 i)
    (x0 : Vec F S128x4096 .f32) (x1 : Vec F S128x4096 .i32) (x2 : Vec F S1x128 .f32) (x3 : Vec F S128x4096 .i32) (x4 : Vec F S1x128 .f32) (x5 : Vec F S4096x128 .i32) (x6 : Vec F S1x4096 .f32) :
    sout0_A_0 c i arg2 harg2 arg3 harg3 arg4 harg4 arg5 harg5 arg6 harg6 arg7 harg7 arg8 harg8 arg9 harg9 arg10 harg10 hc0 hc1 x0 x1 x2 x3 x4 x5 x6 = k0_pay1 (k0_pay4 x0 x1 x3 x2 x4 x5) (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S128x4096) hz, View.readCov_unit_zero (S := S128x4096) _ hz]
  simp only [View.readAt_eq_ld, harg2.read_unread, harg3.read_unread, harg4.read_unread, harg5.read_unread, harg6.read_unread, harg7.read_unread, harg8.read_unread, harg9.read_unread, harg10.read_unread, View.ld_unit_zero (S := S128x4096) hz, View.ld_unit_zero (S := S1x128) hz, View.ld_unit_zero (S := S4096x128) hz, View.ld_unit_zero (S := S1x4096) hz]

/-- A middle block: the accumulator ends at what the point before left plus the tile's product. -/
theorem acc_middle (c : Dev nD) (i : grid0.Coords) (arg2 : Memref sig .tc .vmem S128x4096 .f32) (harg2 : arg2.IsWhole) (arg3 : Memref sig .tc .vmem S128x4096 .i32) (harg3 : arg3.IsWhole) (arg4 : Memref sig .tc .vmem S1x128 .f32) (harg4 : arg4.IsWhole) (arg5 : Memref sig .tc .vmem S128x4096 .i32) (harg5 : arg5.IsWhole) (arg6 : Memref sig .tc .vmem S1x128 .f32) (harg6 : arg6.IsWhole) (arg7 : Memref sig .tc .vmem S4096x128 .i32) (harg7 : arg7.IsWhole) (arg8 : Memref sig .tc .vmem S1x4096 .f32) (harg8 : arg8.IsWhole) (arg9 : Memref sig .tc .vmem S128x4096 .f32) (harg9 : arg9.IsWhole) (arg10 : Memref sig .tc .vmem S128x4096 .f32) (harg10 : arg10.IsWhole) (hc0 : ¬cond0_0 i) (hc1 : ¬cond0_1 i)
    (x0 : Vec F S128x4096 .f32) (x1 : Vec F S128x4096 .i32) (x2 : Vec F S1x128 .f32) (x3 : Vec F S128x4096 .i32) (x4 : Vec F S1x128 .f32) (x5 : Vec F S4096x128 .i32) (x6 : Vec F S1x4096 .f32) (xs0 : Vec F S128x4096 .f32) :
    sout0_B_0 c i arg2 harg2 arg3 harg3 arg4 harg4 arg5 harg5 arg6 harg6 arg7 harg7 arg8 harg8 arg9 harg9 arg10 harg10 hc0 hc1 x0 x1 x2 x3 x4 x5 x6 xs0 = k0_pay1 (k0_pay4 x0 x1 x3 x2 x4 x5) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S128x4096) hz, View.ld_unit_zero (S := S1x128) hz, View.ld_unit_zero (S := S4096x128) hz, View.ld_unit_zero (S := S1x4096) hz]

/-- The last block: the accumulator likewise, -/
theorem acc_last (c : Dev nD) (i : grid0.Coords) (arg2 : Memref sig .tc .vmem S128x4096 .f32) (harg2 : arg2.IsWhole) (arg3 : Memref sig .tc .vmem S128x4096 .i32) (harg3 : arg3.IsWhole) (arg4 : Memref sig .tc .vmem S1x128 .f32) (harg4 : arg4.IsWhole) (arg5 : Memref sig .tc .vmem S128x4096 .i32) (harg5 : arg5.IsWhole) (arg6 : Memref sig .tc .vmem S1x128 .f32) (harg6 : arg6.IsWhole) (arg7 : Memref sig .tc .vmem S4096x128 .i32) (harg7 : arg7.IsWhole) (arg8 : Memref sig .tc .vmem S1x4096 .f32) (harg8 : arg8.IsWhole) (arg9 : Memref sig .tc .vmem S128x4096 .f32) (harg9 : arg9.IsWhole) (arg10 : Memref sig .tc .vmem S128x4096 .f32) (harg10 : arg10.IsWhole) (hc0 : ¬cond0_0 i) (hc1 : cond0_1 i)
    (x0 : Vec F S128x4096 .f32) (x1 : Vec F S128x4096 .i32) (x2 : Vec F S1x128 .f32) (x3 : Vec F S128x4096 .i32) (x4 : Vec F S1x128 .f32) (x5 : Vec F S4096x128 .i32) (x6 : Vec F S1x4096 .f32) (xs0 : Vec F S128x4096 .f32) :
    sout0_C_0 c i arg2 harg2 arg3 harg3 arg4 harg4 arg5 harg5 arg6 harg6 arg7 harg7 arg8 harg8 arg9 harg9 arg10 harg10 hc0 hc1 x0 x1 x2 x3 x4 x5 x6 xs0 = k0_pay1 (k0_pay4 x0 x1 x3 x2 x4 x5) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S128x4096) hz, View.ld_unit_zero (S := S1x128) hz, View.ld_unit_zero (S := S4096x128) hz, View.ld_unit_zero (S := S1x4096) hz]

/-- and the output's staging buffer receives that accumulator scaled per output channel. -/
theorem out_last (c : Dev nD) (i : grid0.Coords) (arg2 : Memref sig .tc .vmem S128x4096 .f32) (harg2 : arg2.IsWhole) (arg3 : Memref sig .tc .vmem S128x4096 .i32) (harg3 : arg3.IsWhole) (arg4 : Memref sig .tc .vmem S1x128 .f32) (harg4 : arg4.IsWhole) (arg5 : Memref sig .tc .vmem S128x4096 .i32) (harg5 : arg5.IsWhole) (arg6 : Memref sig .tc .vmem S1x128 .f32) (harg6 : arg6.IsWhole) (arg7 : Memref sig .tc .vmem S4096x128 .i32) (harg7 : arg7.IsWhole) (arg8 : Memref sig .tc .vmem S1x4096 .f32) (harg8 : arg8.IsWhole) (arg9 : Memref sig .tc .vmem S128x4096 .f32) (harg9 : arg9.IsWhole) (arg10 : Memref sig .tc .vmem S128x4096 .f32) (harg10 : arg10.IsWhole) (hc0 : ¬cond0_0 i) (hc1 : cond0_1 i)
    (x0 : Vec F S128x4096 .f32) (x1 : Vec F S128x4096 .i32) (x2 : Vec F S1x128 .f32) (x3 : Vec F S128x4096 .i32) (x4 : Vec F S1x128 .f32) (x5 : Vec F S4096x128 .i32) (x6 : Vec F S1x4096 .f32) (xs0 : Vec F S128x4096 .f32) :
    out0_C_7 c i arg2 harg2 arg3 harg3 arg4 harg4 arg5 harg5 arg6 harg6 arg7 harg7 arg8 harg8 arg9 harg9 arg10 harg10 hc0 hc1 x0 x1 x2 x3 x4 x5 x6 xs0 = k0_pay2 (k0_pay1 (k0_pay4 x0 x1 x3 x2 x4 x5) xs0) x6 := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz, View.readCov_unit_zero (S := S128x4096) _ hz]
  simp only [View.readAt_eq_ld, harg2.read_unread, harg3.read_unread, harg4.read_unread, harg5.read_unread, harg6.read_unread, harg7.read_unread, harg8.read_unread, harg9.read_unread, harg10.read_unread, View.ld_unit_zero (S := S128x4096) hz, View.ld_unit_zero (S := S1x128) hz, View.ld_unit_zero (S := S4096x128) hz, View.ld_unit_zero (S := S1x4096) hz]

end Cert.KernelIdeal.Pieces

end
-- ==== Proof.Spec.lean ====
/-
  The specification. A gated feed-forward block with integer weights and per-channel scales, over the extended reals:
  for a token row t, a hidden channel j and an output channel r,

      g(t, j) = (sum over k of x(t, k) * wg(j, k)) * sg(j)          the gate projection, scaled per channel
      u(t, j) = (sum over k of x(t, k) * wu(j, k)) * su(j)          the up projection, scaled per channel
      h(t, j) = (g * (1 / (1 + exp (0 - g)))) * u                   the gate: g times its logistic, times u
      out(t, r) = (sum over j of h(t, j) * wd(r, j)) * sd(r)        the down projection, scaled per channel

  The token rows are the input's two leading axes merged (2 x 1024 rows of 4096). The definitions are generic in the
  row and channel index types, so that the same words describe one tile of the computation (128 rows, 128 channels)
  and the whole arrays (2048 rows, 11008 channels).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- An integer word read signed, as an extended real. -/
abbrev cv (b : BitVec 32) : EReal := FloatOps.sitofp (F := Ideal) .f32 b

/-- The gate: `g` times its logistic `1 / (1 + exp (0 - g))`, times `u`. The words 1.0 and 0.0 are kept as words: both
    programs spell them with the same words. -/
def act (g u : EReal) : EReal :=
  (g * Ideal.div (Ideal.ofBits .f32 0x3F800000#32)
        (Ideal.ofBits .f32 0x3F800000#32 + Ideal.exp (Ideal.ofBits .f32 0x00000000#32 - g))) * u

/-- A projection with a per-channel scale: row `t` of `X` against row `j` of `W`, contracted over the 4096 features,
    times channel `j`'s scale. -/
def proj {T J : Type} (X : T → Fin 4096 → EReal) (W : J → Fin 4096 → EReal) (S : J → EReal) (t : T) (j : J) : EReal :=
  (∑ k : Fin 4096, X t k * W j k) * S j

/-- The hidden activation at row `t`, channel `j`. -/
def hid {T J : Type} (X : T → Fin 4096 → EReal) (Wg : J → Fin 4096 → EReal) (Sg : J → EReal)
    (Wu : J → Fin 4096 → EReal) (Su : J → EReal) (t : T) (j : J) : EReal :=
  act (proj X Wg Sg t j) (proj X Wu Su t j)

/-- One term of the down projection: channel `j`'s contribution to output `(t, r)`. -/
def term {T J R : Type} (X : T → Fin 4096 → EReal) (Wg : J → Fin 4096 → EReal) (Sg : J → EReal)
    (Wu : J → Fin 4096 → EReal) (Su : J → EReal) (Wd : R → J → EReal) (t : T) (r : R) (j : J) : EReal :=
  hid X Wg Sg Wu Su t j * Wd r j

/-- One term of the down projection from exactly what it depends on: the token's row, the hidden channel's two weight
    rows and two scales, and one down weight. -/
def termAt (xrow wgrow : Fin 4096 → EReal) (sg : EReal) (wurow : Fin 4096 → EReal) (su wd : EReal) : EReal :=
  act ((∑ k : Fin 4096, xrow k * wgrow k) * sg) ((∑ k : Fin 4096, xrow k * wurow k) * su) * wd

theorem term_eq {T J R : Type} (X : T → Fin 4096 → EReal) (Wg : J → Fin 4096 → EReal) (Sg : J → EReal)
    (Wu : J → Fin 4096 → EReal) (Su : J → EReal) (Wd : R → J → EReal) (t : T) (r : R) (j : J) :
    term X Wg Sg Wu Su Wd t r j = termAt (X t) (Wg j) (Sg j) (Wu j) (Su j) (Wd r j) := rfl

/-- The block's output at row `t`, output channel `r`: the down projection over all 11008 hidden channels, scaled. -/
def out2 {T R : Type} (X : T → Fin 4096 → EReal) (Wg : Fin 11008 → Fin 4096 → EReal) (Sg : Fin 11008 → EReal)
    (Wu : Fin 11008 → Fin 4096 → EReal) (Su : Fin 11008 → EReal) (Wd : R → Fin 11008 → EReal) (Sd : R → EReal)
    (t : T) (r : R) : EReal :=
  (∑ j : Fin 11008, term X Wg Sg Wu Su Wd t r j) * Sd r

/-! ## The whole arrays -/

abbrev SX : Shape := ⟨3, ![2, 1024, 4096]⟩
abbrev SXt : Shape := ⟨2, ![2048, 4096]⟩
abbrev SW : Shape := ⟨2, ![11008, 4096]⟩
abbrev SS : Shape := ⟨1, ![11008]⟩
abbrev SWd : Shape := ⟨2, ![4096, 11008]⟩
abbrev SSd : Shape := ⟨1, ![4096]⟩

/-- The result as ONE function of the seven argument arrays, before its last re-laying to 2 x 1024 x 4096: at
    `(t, r)` the block's output of the input's rows merged to 2048 rows (a shape cast, kept as it is), the integer
    weights read signed. -/
def G (x : SX.Idx → EReal) (wg : SW.Idx → BitVec 32) (sg : SS.Idx → EReal) (wu : SW.Idx → BitVec 32) (su : SS.Idx → EReal)
    (wd : SWd.Idx → BitVec 32) (sd : SSd.Idx → EReal) (hx : SX.ShapeCasts SXt) : SXt.Idx → EReal := fun i =>
  out2 (fun t k => shapeCast SXt x hx (ix2 t k)) (fun j k => cv (wg (ix2 j k))) (fun j => sg (ix1 j))
    (fun j k => cv (wu (ix2 j k))) (fun j => su (ix1 j)) (fun r j => cv (wd (ix2 r j))) (fun r => sd (ix1 r)) (i 0) (i 1)

end Cert.Spec

end
-- ==== Proof.KernelTile.lean ====
/-
  One tile of the kernel's arithmetic, read at an index over the extended reals. At a grid point the body holds a
  block of 128 token rows (all 4096 features), 128 rows of each of the gate and up weights with their 128 scales, and
  the 128 matching columns of the down weights (all 4096 output channels). What it adds to the accumulator at row `p`,
  output channel `r` is the sum over the tile's 128 hidden channels `q` of the hidden activation at `(p, q)` times
  the down weight at `(r, q)`: each matrix product into the zero splat is a plain sum over the contracted axis, a change
  of float format is the identity, and the scales are one row repeated over the 128 token rows.
-/
import proofs.«145805_j59072980189198_1_alg».proof.Proof.Gen.KernelIdeal.Skeleton
import proofs.«145805_j59072980189198_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.ValueIdx

/-- The dimension numbers of the two projections' products ([128, 4096] x [128, 4096], contracting axis 1 of both). -/
abbrev D1 : DotDims S128x4096 S128x4096 S128x128 := dot_S128x4096_S128x4096_S128x128_1_1_0_0_n_n
/-- The dimension numbers of the down product ([128, 128] x [4096, 128], contracting axis 1 of both). -/
abbrev D2 : DotDims S128x128 S4096x128 S128x4096 := dot_S128x128_S4096x128_S128x4096_1_1_0_0_n_n

/-! ## The operand indices of the two products -/

theorem D1_lhs0 (i : S128x128.Idx) (q : D1.contr.Idx) : (D1.lhsIdx i q 0).val = (i 0).val := by
  unfold DotDims.lhsIdx
  rw [dif_neg (show ¬(0 : Fin S128x4096.rank) ∈ D1.lhsBatch by decide), dif_pos (show (0 : Fin S128x4096.rank) ∈ D1.lhsNonContracting by decide)]
  rfl
theorem D1_lhs1 (i : S128x128.Idx) (q : D1.contr.Idx) : (D1.lhsIdx i q 1).val = (q ⟨0, by decide⟩).val :=
  D1.lhsIdx_val_of_single rfl i q
theorem D1_rhs0 (i : S128x128.Idx) (q : D1.contr.Idx) : (D1.rhsIdx i q 0).val = (i 1).val := by
  unfold DotDims.rhsIdx
  rw [dif_neg (show ¬(0 : Fin S128x4096.rank) ∈ D1.rhsBatch by decide), dif_pos (show (0 : Fin S128x4096.rank) ∈ D1.rhsNonContracting by decide)]
  rfl
theorem D1_rhs1 (i : S128x128.Idx) (q : D1.contr.Idx) : (D1.rhsIdx i q 1).val = (q ⟨0, by decide⟩).val :=
  D1.rhsIdx_val_of_single rfl i q

theorem D2_lhs0 (i : S128x4096.Idx) (q : D2.contr.Idx) : (D2.lhsIdx i q 0).val = (i 0).val := by
  unfold DotDims.lhsIdx
  rw [dif_neg (show ¬(0 : Fin S128x128.rank) ∈ D2.lhsBatch by decide), dif_pos (show (0 : Fin S128x128.rank) ∈ D2.lhsNonContracting by decide)]
  rfl
theorem D2_lhs1 (i : S128x4096.Idx) (q : D2.contr.Idx) : (D2.lhsIdx i q 1).val = (q ⟨0, by decide⟩).val :=
  D2.lhsIdx_val_of_single rfl i q
theorem D2_rhs0 (i : S128x4096.Idx) (q : D2.contr.Idx) : (D2.rhsIdx i q 0).val = (i 1).val := by
  unfold DotDims.rhsIdx
  rw [dif_neg (show ¬(0 : Fin S4096x128.rank) ∈ D2.rhsBatch by decide), dif_pos (show (0 : Fin S4096x128.rank) ∈ D2.rhsNonContracting by decide)]
  rfl
theorem D2_rhs1 (i : S128x4096.Idx) (q : D2.contr.Idx) : (D2.rhsIdx i q 1).val = (q ⟨0, by decide⟩).val :=
  D2.rhsIdx_val_of_single rfl i q

/-- A projection's product into the zero splat, at `(p, q)`: row `p` of the left operand against row `q` of the right. -/
theorem dot1_apply {φ₁ φ₂ : FTy} (l : FVec Ideal S128x4096 φ₁) (r : FVec Ideal S128x4096 φ₂) (p q : Fin 128) :
    FloatOps.matmul D1 none l r (constant S128x128 .f32 0x00000000#32) (ix2 p q) = ∑ k : Fin 4096, l (ix2 p k) * r (ix2 q k) := by
  rw [Ideal.matmul_constant_zero_apply, ← Equiv.sum_comp (contrEquiv1 D1 4096 rfl rfl).symm]
  refine Finset.sum_congr rfl fun k _ => ?_
  have hk := contrEquiv1_symm_val D1 4096 rfl rfl k
  have el : D1.lhsIdx (ix2 p q) ((contrEquiv1 D1 4096 rfl rfl).symm k) = ix2 p k := funext fun a => Fin.ext (by
    match a with
    | ⟨0, _⟩ => exact D1_lhs0 _ _
    | ⟨1, _⟩ => exact (D1_lhs1 _ _).trans hk)
  have er : D1.rhsIdx (ix2 p q) ((contrEquiv1 D1 4096 rfl rfl).symm k) = ix2 q k := funext fun a => Fin.ext (by
    match a with
    | ⟨0, _⟩ => exact D1_rhs0 _ _
    | ⟨1, _⟩ => exact (D1_rhs1 _ _).trans hk)
  rw [el, er]

/-- The down product into the zero splat, at `(p, r)`: row `p` of the hidden tile against row `r` of the weights. -/
theorem dot2_apply {φ₁ φ₂ : FTy} (l : FVec Ideal S128x128 φ₁) (w : FVec Ideal S4096x128 φ₂) (p : Fin 128) (r : Fin 4096) :
    FloatOps.matmul D2 none l w (constant S128x4096 .f32 0x00000000#32) (ix2 p r) = ∑ q : Fin 128, l (ix2 p q) * w (ix2 r q) := by
  rw [Ideal.matmul_constant_zero_apply, ← Equiv.sum_comp (contrEquiv1 D2 128 rfl rfl).symm]
  refine Finset.sum_congr rfl fun k _ => ?_
  have hk := contrEquiv1_symm_val D2 128 rfl rfl k
  have el : D2.lhsIdx (ix2 p r) ((contrEquiv1 D2 128 rfl rfl).symm k) = ix2 p k := funext fun a => Fin.ext (by
    match a with
    | ⟨0, _⟩ => exact D2_lhs0 _ _
    | ⟨1, _⟩ => exact (D2_lhs1 _ _).trans hk)
  have er : D2.rhsIdx (ix2 p r) ((contrEquiv1 D2 128 rfl rfl).symm k) = ix2 r k := funext fun a => Fin.ext (by
    match a with
    | ⟨0, _⟩ => exact D2_rhs0 _ _
    | ⟨1, _⟩ => exact (D2_rhs1 _ _).trans hk)
  rw [el, er]

/-! ## The tile's values as vectors -/

/-- A scaled projection tile: the token block against a weight block, times the block's scales repeated over the rows. -/
def projTile (x : Vec Ideal S128x4096 .f32) (w : Vec Ideal S128x4096 .i32) (s : Vec Ideal S1x128 .f32) : FVec Ideal S128x128 .f32 :=
  mulf (matmul D1 none (truncf .bf16 (shapeCast S128x4096 x shapeCasts_S128x4096_S128x4096) bitsLt_bf16_f32)
      (truncf .bf16 (sitofp .f32 w) bitsLt_bf16_f32) (constant S128x128 .f32 0x00000000#32))
    (broadcastTo S128x128 (shapeCast S1x128 s shapeCasts_S1x128_S1x128) broadcasts_S1x128_S128x128)

/-- The hidden tile: the gate projection times its logistic, times the up projection. -/
def hidTile (x : Vec Ideal S128x4096 .f32) (wg : Vec Ideal S128x4096 .i32) (sg : Vec Ideal S1x128 .f32)
    (wu : Vec Ideal S128x4096 .i32) (su : Vec Ideal S1x128 .f32) : FVec Ideal S128x128 .f32 :=
  mulf (mulf (projTile x wg sg)
      (divf (broadcast S128x128 (Scalar.ofBits .f32 0x3F800000#32))
        (addf (broadcast S128x128 (Scalar.ofBits .f32 0x3F800000#32))
          (exp (subf (broadcast S128x128 (Scalar.ofBits .f32 0x00000000#32)) (projTile x wg sg))))))
    (projTile x wu su)

/-- The body's product payload is the hidden tile against the down-weight block, into the zero splat. -/
theorem pay4_eq (x : Vec Ideal S128x4096 .f32) (wg : Vec Ideal S128x4096 .i32) (wu : Vec Ideal S128x4096 .i32)
    (sg su : Vec Ideal S1x128 .f32) (wd : Vec Ideal S4096x128 .i32) :
    k0_pay4 (F := Ideal) x wg wu sg su wd
      = matmul D2 none (truncf .bf16 (hidTile x wg sg wu su) bitsLt_bf16_f32)
          (truncf .bf16 (sitofp .f32 wd) bitsLt_bf16_f32) (constant S128x4096 .f32 0x00000000#32) := rfl

/-! ## The tile's values at an index -/

theorem projTile_apply (x : Vec Ideal S128x4096 .f32) (w : Vec Ideal S128x4096 .i32) (s : Vec Ideal S1x128 .f32) (p q : Fin 128) :
    projTile x w s (ix2 p q)
      = Spec.proj (fun p k => x (ix2 p k)) (fun q k => Spec.cv (w (ix2 q k))) (fun q => s (ix2 (0 : Fin 1) q)) p q := by
  unfold projTile Spec.proj
  rw [mulf_apply, shapeCast_self, shapeCast_self, broadcastTo_1b_ab_apply]
  refine congrArg (· * s (ix2 (0 : Fin 1) q)) ?_
  exact dot1_apply _ _ p q

theorem hidTile_apply (x : Vec Ideal S128x4096 .f32) (wg : Vec Ideal S128x4096 .i32) (sg : Vec Ideal S1x128 .f32)
    (wu : Vec Ideal S128x4096 .i32) (su : Vec Ideal S1x128 .f32) (p q : Fin 128) :
    hidTile x wg sg wu su (ix2 p q)
      = Spec.hid (fun p k => x (ix2 p k)) (fun q k => Spec.cv (wg (ix2 q k))) (fun q => sg (ix2 (0 : Fin 1) q))
          (fun q k => Spec.cv (wu (ix2 q k))) (fun q => su (ix2 (0 : Fin 1) q)) p q := by
  show (projTile x wg sg (ix2 p q) * Ideal.div (Ideal.ofBits .f32 0x3F800000#32)
      (Ideal.ofBits .f32 0x3F800000#32 + Ideal.exp (Ideal.ofBits .f32 0x00000000#32 - projTile x wg sg (ix2 p q))))
      * projTile x wu su (ix2 p q) = _
  rw [projTile_apply, projTile_apply]
  rfl

/-- What one grid point adds to the accumulator at row `p`, output channel `r`: the tile's 128 terms of the down
    projection. -/
theorem pay4_apply (x : Vec Ideal S128x4096 .f32) (wg : Vec Ideal S128x4096 .i32) (wu : Vec Ideal S128x4096 .i32)
    (sg su : Vec Ideal S1x128 .f32) (wd : Vec Ideal S4096x128 .i32) (p : Fin 128) (r : Fin 4096) :
    k0_pay4 (F := Ideal) x wg wu sg su wd (ix2 p r)
      = ∑ q : Fin 128, Spec.term (fun p k => x (ix2 p k)) (fun q k => Spec.cv (wg (ix2 q k))) (fun q => sg (ix2 (0 : Fin 1) q))
          (fun q k => Spec.cv (wu (ix2 q k))) (fun q => su (ix2 (0 : Fin 1) q)) (fun r q => Spec.cv (wd (ix2 r q))) p r q := by
  rw [pay4_eq]
  refine (dot2_apply _ _ p r).trans (Finset.sum_congr rfl fun q _ => ?_)
  show hidTile x wg sg wu su (ix2 p q) * Spec.cv (wd (ix2 r q)) = _
  rw [hidTile_apply]
  rfl

end Cert.KernelIdeal.Tile

end
-- ==== Proof.KernelBlocks.lean ====
/-
  The blocks the kernel's body is handed, read at an index. The grid has 16 x 86 points; point number t works on token
  rows 128 * (t / 86) .. and hidden channels 128 * (t % 86) ..: the token block and the output block move with t / 86,
  the gate and up weight rows, their scales and the down weight columns move with t % 86, and the output scales are one
  block. Each block's entry is the array's entry at block index times block size plus the coordinate inside the block.
  The arrays the region finds are the arguments themselves or a host re-laying of them: the input's two leading axes
  merged, and each scale vector as a one-row matrix.
-/
import proofs.«145805_j59072980189198_1_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

noncomputable section

namespace Cert.KernelIdeal.Blocks

open Cert.KernelIdeal Cert.KernelIdeal.Gen Idealize.ShloMosaic Idealize.ShloMosaic.ValueIdx Idealize.ShloMosaic.TcCoe Idealize.SL.Sem

variable {F : FTy → Type} [FloatOps F]
variable (m : (ℓ : Loc nD τ sig) → Buf (Elt F) ℓ)

/-! ## The printed index maps, decided once over the grid -/

theorem idx0 : ∀ t : Fin cfg0.N, win0_0.index t (0 : Fin 2) = t.val / 86 ∧ win0_0.index t (1 : Fin 2) = 0 :=
  (by decide +kernel : ∀ t : Fin grid0.N, _)
theorem idx1 : ∀ t : Fin cfg0.N, win0_1.index t (0 : Fin 2) = t.val % 86 ∧ win0_1.index t (1 : Fin 2) = 0 :=
  (by decide +kernel : ∀ t : Fin grid0.N, _)
theorem idx2 : ∀ t : Fin cfg0.N, win0_2.index t (0 : Fin 2) = 0 ∧ win0_2.index t (1 : Fin 2) = t.val % 86 :=
  (by decide +kernel : ∀ t : Fin grid0.N, _)
theorem idx3 : ∀ t : Fin cfg0.N, win0_3.index t (0 : Fin 2) = t.val % 86 ∧ win0_3.index t (1 : Fin 2) = 0 :=
  (by decide +kernel : ∀ t : Fin grid0.N, _)
theorem idx4 : ∀ t : Fin cfg0.N, win0_4.index t (0 : Fin 2) = 0 ∧ win0_4.index t (1 : Fin 2) = t.val % 86 :=
  (by decide +kernel : ∀ t : Fin grid0.N, _)
theorem idx5 : ∀ t : Fin cfg0.N, win0_5.index t (0 : Fin 2) = 0 ∧ win0_5.index t (1 : Fin 2) = t.val % 86 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = t.val / 86 ∧ win0_7.index t (1 : Fin 2) = 0 :=
  (by decide +kernel : ∀ t : Fin grid0.N, _)

/-! ## The arrays the region finds -/

theorem V_v0 (c : Dev nD) : (V m c main_v0 : S2048x4096.Idx → Elt F .f32)
    = shapeCast S2048x4096 (m ((c : Thread nD τ).loc main_arg0)) shapeCasts_S2x1024x4096_S2048x4096 := by
  show StableHlo.after hostOps0 (fun b => m (c, b)) (Proc.devRef .tc main_v0) = _
  after_results; rfl

theorem V_v1 (c : Dev nD) : (V m c main_v1 : S1x11008.Idx → Elt F .f32)
    = shapeCast S1x11008 (m ((c : Thread nD τ).loc main_arg2)) shapeCasts_S11008_S1x11008 := by
  show StableHlo.after hostOps0 (fun b => m (c, b)) (Proc.devRef .tc main_v1) = _
  after_results; rfl

theorem V_v2 (c : Dev nD) : (V m c main_v2 : S1x11008.Idx → Elt F .f32)
    = shapeCast S1x11008 (m ((c : Thread nD τ).loc main_arg4)) shapeCasts_S11008_S1x11008 := by
  show StableHlo.after hostOps0 (fun b => m (c, b)) (Proc.devRef .tc main_v2) = _
  after_results; rfl

theorem V_v3 (c : Dev nD) : (V m c main_v3 : S1x4096.Idx → Elt F .f32)
    = shapeCast S1x4096 (m ((c : Thread nD τ).loc main_arg6)) shapeCasts_S4096_S1x4096 := by
  show StableHlo.after hostOps0 (fun b => m (c, b)) (Proc.devRef .tc main_v3) = _
  after_results; rfl

/-! ## Each window's block at a point, at an index -/

/-- The token block: row `p` of the block is row `128 * (t / 86) + p` of the merged input. -/
theorem blk0 (c : Dev nD) (t : Fin cfg0.N) (p : Fin 128) (k : Fin 4096) (a : Fin 2048) (ha : a.val = 128 * (t.val / 86) + p.val) :
    (iblk m c 0 t : Vec F S128x4096 .f32) (ix2 p k)
      = shapeCast S2048x4096 (m ((c : Thread nD τ).loc main_arg0)) shapeCasts_S2x1024x4096_S2048x4096 (ix2 a k) := by
  obtain ⟨e0, e1⟩ := idx0 t
  refine Eq.trans ?_ (congrFun (V_v0 m c) (ix2 a k))
  unfold iblk
  rw [View.read_apply]
  show V m c main_v0 (((cfg0.win 0).blk t).view.emb (ix2 p k)) = V m c main_v0 (ix2 a k)
  refine congrArg (V m c main_v0) (funext fun b => Fin.ext ?_)
  match b with
  | ⟨0, _⟩ => show win0_0.index t (0 : Fin 2) * 128 + 1 * p.val = a.val; rw [e0, ha]; omega
  | ⟨1, _⟩ => show win0_0.index t (1 : Fin 2) * 4096 + 1 * k.val = k.val; rw [e1]; omega

/-- The gate weights' block: row `q` of the block is row `128 * (t % 86) + q` of the array. -/
theorem blk1 (c : Dev nD) (t : Fin cfg0.N) (q : Fin 128) (k : Fin 4096) (j : Fin 11008) (hj : j.val = 128 * (t.val % 86) + q.val) :
    (iblk m c 1 t : Vec F S128x4096 .i32) (ix2 q k) = m ((c : Thread nD τ).loc main_arg1) (ix2 j k) := by
  obtain ⟨e0, e1⟩ := idx1 t
  refine Eq.trans ?_ (congrFun (V_main_arg1 m c) (ix2 j k))
  unfold iblk
  rw [View.read_apply]
  show V m c main_arg1 (((cfg0.win 1).blk t).view.emb (ix2 q k)) = V m c main_arg1 (ix2 j k)
  refine congrArg (V m c main_arg1) (funext fun b => Fin.ext ?_)
  match b with
  | ⟨0, _⟩ => show win0_1.index t (0 : Fin 2) * 128 + 1 * q.val = j.val; rw [e0, hj]; omega
  | ⟨1, _⟩ => show win0_1.index t (1 : Fin 2) * 4096 + 1 * k.val = k.val; rw [e1]; omega

/-- The gate scales' block: entry `q` of its one row is scale `128 * (t % 86) + q`. -/
theorem blk2 (c : Dev nD) (t : Fin cfg0.N) (u : Fin 1) (q : Fin 128) (j : Fin 11008) (hj : j.val = 128 * (t.val % 86) + q.val) :
    (iblk m c 2 t : Vec F S1x128 .f32) (ix2 u q) = m ((c : Thread nD τ).loc main_arg2) (ix1 j) := by
  obtain ⟨e0, e1⟩ := idx2 t
  have hu : u.val = 0 := by omega
  refine Eq.trans ?_ ((congrFun (V_v1 m c) (ix2 (0 : Fin 1) j)).trans
    (shapeCast_a_1a_apply (m ((c : Thread nD τ).loc main_arg2)) shapeCasts_S11008_S1x11008 (0 : Fin 1) j))
  unfold iblk
  rw [View.read_apply]
  show V m c main_v1 (((cfg0.win 2).blk t).view.emb (ix2 u q)) = V m c main_v1 (ix2 (0 : Fin 1) j)
  refine congrArg (V m c main_v1) (funext fun b => Fin.ext ?_)
  match b with
  | ⟨0, _⟩ => show win0_2.index t (0 : Fin 2) * 1 + 1 * u.val = 0; rw [e0, hu]
  | ⟨1, _⟩ => show win0_2.index t (1 : Fin 2) * 128 + 1 * q.val = j.val; rw [e1, hj]; omega

/-- The up weights' block: row `q` of the block is row `128 * (t % 86) + q` of the array. -/
theorem blk3 (c : Dev nD) (t : Fin cfg0.N) (q : Fin 128) (k : Fin 4096) (j : Fin 11008) (hj : j.val = 128 * (t.val % 86) + q.val) :
    (iblk m c 3 t : Vec F S128x4096 .i32) (ix2 q k) = m ((c : Thread nD τ).loc main_arg3) (ix2 j k) := by
  obtain ⟨e0, e1⟩ := idx3 t
  refine Eq.trans ?_ (congrFun (V_main_arg3 m c) (ix2 j k))
  unfold iblk
  rw [View.read_apply]
  show V m c main_arg3 (((cfg0.win 3).blk t).view.emb (ix2 q k)) = V m c main_arg3 (ix2 j k)
  refine congrArg (V m c main_arg3) (funext fun b => Fin.ext ?_)
  match b with
  | ⟨0, _⟩ => show win0_3.index t (0 : Fin 2) * 128 + 1 * q.val = j.val; rw [e0, hj]; omega
  | ⟨1, _⟩ => show win0_3.index t (1 : Fin 2) * 4096 + 1 * k.val = k.val; rw [e1]; omega

/-- The up scales' block: entry `q` of its one row is scale `128 * (t % 86) + q`. -/
theorem blk4 (c : Dev nD) (t : Fin cfg0.N) (u : Fin 1) (q : Fin 128) (j : Fin 11008) (hj : j.val = 128 * (t.val % 86) + q.val) :
    (iblk m c 4 t : Vec F S1x128 .f32) (ix2 u q) = m ((c : Thread nD τ).loc main_arg4) (ix1 j) := by
  obtain ⟨e0, e1⟩ := idx4 t
  have hu : u.val = 0 := by omega
  refine Eq.trans ?_ ((congrFun (V_v2 m c) (ix2 (0 : Fin 1) j)).trans
    (shapeCast_a_1a_apply (m ((c : Thread nD τ).loc main_arg4)) shapeCasts_S11008_S1x11008 (0 : Fin 1) j))
  unfold iblk
  rw [View.read_apply]
  show V m c main_v2 (((cfg0.win 4).blk t).view.emb (ix2 u q)) = V m c main_v2 (ix2 (0 : Fin 1) j)
  refine congrArg (V m c main_v2) (funext fun b => Fin.ext ?_)
  match b with
  | ⟨0, _⟩ => show win0_4.index t (0 : Fin 2) * 1 + 1 * u.val = 0; rw [e0, hu]
  | ⟨1, _⟩ => show win0_4.index t (1 : Fin 2) * 128 + 1 * q.val = j.val; rw [e1, hj]; omega

/-- The down weights' block: column `q` of the block is column `128 * (t % 86) + q` of the array, every row. -/
theorem blk5 (c : Dev nD) (t : Fin cfg0.N) (r : Fin 4096) (q : Fin 128) (j : Fin 11008) (hj : j.val = 128 * (t.val % 86) + q.val) :
    (iblk m c 5 t : Vec F S4096x128 .i32) (ix2 r q) = m ((c : Thread nD τ).loc main_arg5) (ix2 r j) := by
  obtain ⟨e0, e1⟩ := idx5 t
  refine Eq.trans ?_ (congrFun (V_main_arg5 m c) (ix2 r j))
  unfold iblk
  rw [View.read_apply]
  show V m c main_arg5 (((cfg0.win 5).blk t).view.emb (ix2 r q)) = V m c main_arg5 (ix2 r j)
  refine congrArg (V m c main_arg5) (funext fun b => Fin.ext ?_)
  match b with
  | ⟨0, _⟩ => show win0_5.index t (0 : Fin 2) * 4096 + 1 * r.val = r.val; rw [e0]; omega
  | ⟨1, _⟩ => show win0_5.index t (1 : Fin 2) * 128 + 1 * q.val = j.val; rw [e1, hj]; omega

/-- The output scales' one block: entry `r` of its one row is scale `r`. -/
theorem blk6 (c : Dev nD) (t : Fin cfg0.N) (u : Fin 1) (r : Fin 4096) :
    (iblk m c 6 t : Vec F S1x4096 .f32) (ix2 u r) = m ((c : Thread nD τ).loc main_arg6) (ix1 r) := by
  obtain ⟨e0, e1⟩ := idx6 t
  have hu : u.val = 0 := by omega
  refine Eq.trans ?_ ((congrFun (V_v3 m c) (ix2 (0 : Fin 1) r)).trans
    (shapeCast_a_1a_apply (m ((c : Thread nD τ).loc main_arg6)) shapeCasts_S4096_S1x4096 (0 : Fin 1) r))
  unfold iblk
  rw [View.read_apply]
  show V m c main_v3 (((cfg0.win 6).blk t).view.emb (ix2 u r)) = V m c main_v3 (ix2 (0 : Fin 1) r)
  refine congrArg (V m c main_v3) (funext fun b => Fin.ext ?_)
  match b with
  | ⟨0, _⟩ => show win0_6.index t (0 : Fin 2) * 1 + 1 * u.val = 0; rw [e0, hu]
  | ⟨1, _⟩ => show win0_6.index t (1 : Fin 2) * 4096 + 1 * r.val = r.val; rw [e1]; omega

end Cert.KernelIdeal.Blocks

end
-- ==== Proof.LibBlockSum.lean ====
/-
  A finite sum evaluated in blocks of consecutive indices.

  In a commutative monoid, for a block width B and a number of blocks n:
    * the sum over the first B * n natural numbers is the sum over t < n of the sums over the B numbers from B * t on;
    * so a sum over an index type with B * n elements is the sum of its n blocks' sums;
    * and a sum over B indices whose r-th entry is entry B * t + r of a family is that family's block t.
  The blocks' sums added one after the other (the blocks 0 .. n, then block n + 1) are the library's sum over a range
  with one more element. Only associativity and commutativity of addition are used, so all of this holds on the
  extended reals with no finiteness condition: it is the law that joins an accumulation over K-blocks (a matrix
  product cut along its contracted axis and accumulated block by block) to the whole sum.
-/
import Mathlib.Algebra.BigOperators.Fin
import Mathlib.Algebra.BigOperators.Intervals

namespace Cert.LibBlockSum

variable {M : Type*} [AddCommMonoid M]

/-- The sum over the first B * n natural numbers is the sum, block by block, of n blocks of B consecutive numbers. -/
theorem sum_range_blocks (g : ℕ → M) (B : ℕ) :
    ∀ n, ∑ k ∈ Finset.range (B * n), g k = ∑ t ∈ Finset.range n, ∑ r ∈ Finset.range B, g (B * t + r)
  | 0 => by simp
  | n + 1 => by
    rw [Nat.mul_succ, Finset.sum_range_add, sum_range_blocks g B n, Finset.sum_range_succ]

/-- A family indexed by N indices, continued by zero to every natural number. -/
def total {N : ℕ} (f : Fin N → M) (k : ℕ) : M := if h : k < N then f ⟨k, h⟩ else 0

theorem total_val {N : ℕ} (f : Fin N → M) (k : Fin N) : total f k.val = f k := dif_pos k.isLt

theorem total_of_lt {N : ℕ} (f : Fin N → M) (k : ℕ) (h : k < N) : total f k = f ⟨k, h⟩ := dif_pos h

/-- The sum of block t of width B: the B indices from B * t on. -/
def block {N : ℕ} (B : ℕ) (f : Fin N → M) (t : ℕ) : M := ∑ r : Fin B, total f (B * t + r.val)

/-- A sum over B * n indices is the sum of its n blocks of width B. -/
theorem sum_eq_blocks {N : ℕ} (B n : ℕ) (hN : N = B * n) (f : Fin N → M) :
    ∑ k, f k = ∑ t ∈ Finset.range n, block B f t := by
  subst hN
  have e : ∑ k, f k = ∑ k : Fin (B * n), total f k.val := Finset.sum_congr rfl fun k _ => (total_val f k).symm
  rw [e, Fin.sum_univ_eq_sum_range (total f) (B * n), sum_range_blocks (total f) B n]
  refine Finset.sum_congr rfl fun t _ => ?_
  exact (Fin.sum_univ_eq_sum_range (fun r => total f (B * t + r)) B).symm

/-- A sum over B indices whose r-th entry is entry B * t + r of the family is block t's sum. -/
theorem block_eq {N : ℕ} (B : ℕ) (f : Fin N → M) (t : ℕ) (g : Fin B → M) (hlt : ∀ r : Fin B, B * t + r.val < N)
    (hg : ∀ r : Fin B, g r = f ⟨B * t + r.val, hlt r⟩) : ∑ r, g r = block B f t :=
  Finset.sum_congr rfl fun r _ => (hg r).trans (total_of_lt f _ (hlt r)).symm

/-- The blocks 0 .. n + 1 added up are the blocks 0 .. n added up, plus block n + 1. -/
theorem blocks_succ {N : ℕ} (B : ℕ) (f : Fin N → M) (n : ℕ) :
    ∑ t ∈ Finset.range (n + 1 + 1), block B f t = ∑ t ∈ Finset.range (n + 1), block B f t + block B f (n + 1) :=
  Finset.sum_range_succ _ (n + 1)

end Cert.LibBlockSum
-- ==== Proof.Accum.lean ====
/-
  The accumulation over blocks of hidden channels. A row of 11008 terms is added up 128 at a time: the running value
  starts as the zero word plus the first block's sum, and each later step adds one more block's sum. Since addition of
  extended reals is associative and commutative, the value after the last of the 86 blocks is the sum of all 11008
  terms, whatever their values (no finiteness is needed).
-/
import proofs.«145805_j59072980189198_1_alg».proof.Proof.LibBlockSum
import Idealize.ShloMosaic.PureOps.Ideal
import Idealize.ShloMosaic.PureOps.Ideal.Laws

noncomputable section

namespace Cert.Accum

open Idealize.ShloMosaic Cert.LibBlockSum

/-- The running value after block `n`: the zero word plus block 0's sum, then one block's sum added per step. -/
def accum (f : Fin 11008 → EReal) : ℕ → EReal
  | 0 => Ideal.ofBits .f32 0x00000000#32 + block 128 f 0
  | n + 1 => accum f n + block 128 f (n + 1)

theorem accum_zero (f : Fin 11008 → EReal) : accum f 0 = Ideal.ofBits .f32 0x00000000#32 + block 128 f 0 := rfl

theorem accum_succ (f : Fin 11008 → EReal) (n : ℕ) : accum f (n + 1) = accum f n + block 128 f (n + 1) := rfl

/-- After block `n` the running value is the sum of the blocks `0 .. n`. -/
theorem accum_eq (f : Fin 11008 → EReal) : ∀ n, accum f n = ∑ t ∈ Finset.range (n + 1), block 128 f t
  | 0 => by rw [accum_zero, Ideal.ofBits_zero_f32, zero_add, Finset.sum_range_one]
  | n + 1 => by rw [accum_succ, accum_eq f n, blocks_succ]

/-- After the last block the running value is the whole sum. -/
theorem accum_last (f : Fin 11008 → EReal) : accum f 85 = ∑ j, f j :=
  (accum_eq f 85).trans (sum_eq_blocks 128 86 (by norm_num) f).symm

end Cert.Accum

end
-- ==== Proof.KernelAcc.lean ====
/-
  The accumulator, point by point. Write t for a grid point's number, a = 128 * (t / 86) + p for a token row of its
  block and r for an output channel. The accumulator's entry (p, r) after point t is the running value of row (a, r)'s
  11008 down-projection terms after block t % 86: started from the zero word at the first block, one block of 128
  terms added at every point — the tile's product at point t is exactly block t % 86 of that row's terms, because
  the blocks the body is handed are the arrays' rows and columns at 128 * (t / 86) + . and 128 * (t % 86) + . . This is
  proved by induction on the point. At a row's last block the output's staging buffer receives the whole sum of the
  11008 terms times the output channel's scale.
-/
import proofs.«145805_j59072980189198_1_alg».proof.Proof.KernelPieces
import proofs.«145805_j59072980189198_1_alg».proof.Proof.KernelTile
import proofs.«145805_j59072980189198_1_alg».proof.Proof.KernelBlocks
import proofs.«145805_j59072980189198_1_alg».proof.Proof.Accum
import proofs.«145805_j59072980189198_1_alg».proof.Proof.Spec

noncomputable section

namespace Cert.KernelIdeal.Acc

open Cert.KernelIdeal Cert.KernelIdeal.Gen Idealize.ShloMosaic Idealize.ShloMosaic.ValueIdx Idealize.ShloMosaic.TcCoe Idealize.SL.Sem
open Cert.Spec Cert.Accum Cert.LibBlockSum

variable (m : (ℓ : Loc nD τ sig) → Buf (Elt Ideal) ℓ)

/-! ## The argument arrays by coordinates -/

/-- The input with its two leading axes merged, by row and feature. -/
def Xf (c : Dev nD) : Fin 2048 → Fin 4096 → EReal := fun a k =>
  shapeCast S2048x4096 (m ((c : Thread nD τ).loc main_arg0)) shapeCasts_S2x1024x4096_S2048x4096 (ix2 a k)
/-- The gate weights read signed, by hidden channel and feature. -/
def Wgf (c : Dev nD) : Fin 11008 → Fin 4096 → EReal := fun j k => cv (((m ((c : Thread nD τ).loc main_arg1)) : S11008x4096.Idx → BitVec 32) (ix2 j k))
/-- The gate scales. -/
def Sgf (c : Dev nD) : Fin 11008 → EReal := fun j => ((m ((c : Thread nD τ).loc main_arg2)) : S11008.Idx → EReal) (ix1 j)
/-- The up weights read signed. -/
def Wuf (c : Dev nD) : Fin 11008 → Fin 4096 → EReal := fun j k => cv (((m ((c : Thread nD τ).loc main_arg3)) : S11008x4096.Idx → BitVec 32) (ix2 j k))
/-- The up scales. -/
def Suf (c : Dev nD) : Fin 11008 → EReal := fun j => ((m ((c : Thread nD τ).loc main_arg4)) : S11008.Idx → EReal) (ix1 j)
/-- The down weights read signed, by output channel and hidden channel. -/
def Wdf (c : Dev nD) : Fin 4096 → Fin 11008 → EReal := fun r j => cv (((m ((c : Thread nD τ).loc main_arg5)) : S4096x11008.Idx → BitVec 32) (ix2 r j))
/-- The output scales. -/
def Sdf (c : Dev nD) : Fin 4096 → EReal := fun r => ((m ((c : Thread nD τ).loc main_arg6)) : S4096.Idx → EReal) (ix1 r)

/-- The 11008 terms of output (a, r)'s down projection. -/
def fterm (c : Dev nD) (a : Fin 2048) (r : Fin 4096) : Fin 11008 → EReal := fun j =>
  term (Xf m c) (Wgf m c) (Sgf m c) (Wuf m c) (Suf m c) (Wdf m c) a r j

/-! ## The payloads at an index -/

theorem pay1_apply (d : FVec Ideal S128x4096 .f32) (acc : Vec Ideal S128x4096 .f32) (i : S128x4096.Idx) :
    k0_pay1 (F := Ideal) d acc i = acc i + d i := by
  show shapeCast S128x4096 (addf acc d) shapeCasts_S128x4096_S128x4096 i = _
  rw [shapeCast_self]
  rfl

theorem pay3_apply (i : S128x4096.Idx) : k0_pay3 (F := Ideal) i = Ideal.ofBits .f32 0x00000000#32 := by
  show shapeCast S128x4096 (broadcast S128x4096 (Scalar.ofBits (F := Ideal) .f32 0x00000000#32)) shapeCasts_S128x4096_S128x4096 i = _
  rw [shapeCast_self]
  rfl

theorem pay2_apply (acc : Vec Ideal S128x4096 .f32) (sd : Vec Ideal S1x4096 .f32) (p : Fin 128) (r : Fin 4096) :
    k0_pay2 (F := Ideal) acc sd (ix2 p r) = acc (ix2 p r) * sd (ix2 (0 : Fin 1) r) := by
  show mulf acc (broadcastTo S128x4096 (shapeCast S1x4096 sd shapeCasts_S1x4096_S1x4096 : FVec Ideal S1x4096 .f32)
    broadcasts_S1x4096_S128x4096 : FVec Ideal S128x4096 .f32) (ix2 p r) = _
  rw [mulf_apply, shapeCast_self, broadcastTo_1b_ab_apply]

/-! ## The tile's product at a point is one block of the row's terms -/

theorem termAt_congr {x x' wg wg' wu wu' : Fin 4096 → EReal} {sg sg' su su' wd wd' : EReal}
    (h1 : x = x') (h2 : wg = wg') (h3 : sg = sg') (h4 : wu = wu') (h5 : su = su') (h6 : wd = wd') :
    termAt x wg sg wu su wd = termAt x' wg' sg' wu' su' wd' := by
  subst h1 h2 h3 h4 h5 h6; rfl

theorem tile_eq_block (c : Dev nD) (t : Fin cfg0.N) (p : Fin 128) (r : Fin 4096) (a : Fin 2048)
    (ha : a.val = 128 * (t.val / 86) + p.val) (b : ℕ) (hb : t.val % 86 = b) :
    k0_pay4 (F := Ideal) (iblk m c 0 t) (iblk m c 1 t) (iblk m c 3 t) (iblk m c 2 t) (iblk m c 4 t) (iblk m c 5 t) (ix2 p r) = block 128 (fterm m c a r) b := by
  subst hb
  refine (Tile.pay4_apply (iblk m c 0 t) (iblk m c 1 t) (iblk m c 3 t) (iblk m c 2 t) (iblk m c 4 t) (iblk m c 5 t) p r).trans ?_
  have hlt : ∀ q : Fin 128, 128 * (t.val % 86) + q.val < 11008 := fun q => by have := q.isLt; omega
  refine block_eq 128 (fterm m c a r) (t.val % 86) _ hlt (fun q => ?_)
  show termAt (fun k => (iblk m c 0 t : Vec Ideal S128x4096 .f32) (ix2 p k))
      (fun k => cv ((iblk m c 1 t : Vec Ideal S128x4096 .i32) (ix2 q k)))
      ((iblk m c 2 t : Vec Ideal S1x128 .f32) (ix2 (0 : Fin 1) q))
      (fun k => cv ((iblk m c 3 t : Vec Ideal S128x4096 .i32) (ix2 q k)))
      ((iblk m c 4 t : Vec Ideal S1x128 .f32) (ix2 (0 : Fin 1) q))
      (cv ((iblk m c 5 t : Vec Ideal S4096x128 .i32) (ix2 r q)))
    = termAt (Xf m c a) (Wgf m c ⟨128 * (t.val % 86) + q.val, hlt q⟩) (Sgf m c ⟨128 * (t.val % 86) + q.val, hlt q⟩)
        (Wuf m c ⟨128 * (t.val % 86) + q.val, hlt q⟩) (Suf m c ⟨128 * (t.val % 86) + q.val, hlt q⟩)
        (Wdf m c r ⟨128 * (t.val % 86) + q.val, hlt q⟩)
  exact termAt_congr
    (funext fun k => Blocks.blk0 m c t p k a ha)
    (funext fun k => congrArg cv (Blocks.blk1 m c t q k ⟨128 * (t.val % 86) + q.val, hlt q⟩ rfl))
    (Blocks.blk2 m c t (0 : Fin 1) q ⟨128 * (t.val % 86) + q.val, hlt q⟩ rfl)
    (funext fun k => congrArg cv (Blocks.blk3 m c t q k ⟨128 * (t.val % 86) + q.val, hlt q⟩ rfl))
    (Blocks.blk4 m c t (0 : Fin 1) q ⟨128 * (t.val % 86) + q.val, hlt q⟩ rfl)
    (congrArg cv (Blocks.blk5 m c t r q ⟨128 * (t.val % 86) + q.val, hlt q⟩ rfl))

/-! ## One point's step, case by case -/

/-- At a row block's first point the accumulator ends at the zero word plus the tile's product. -/
theorem step_first (c : Dev nD) (t : Fin cfg0.N) (h0 : t.val % 86 = 0) (h1 : ¬t.val % 86 = 85) (p : Fin 128) (r : Fin 4096) :
    (outsAt0 m c t.val t.isLt).2 (ix2 p r)
      = Ideal.ofBits .f32 0x00000000#32 + k0_pay4 (F := Ideal) (iblk m c 0 t) (iblk m c 1 t) (iblk m c 3 t) (iblk m c 2 t) (iblk m c 4 t) (iblk m c 5 t) (ix2 p r) := by
  rw [outsAt0_A m c t h0 h1]
  dsimp only
  refine (congrFun (Pieces.acc_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)) (ix2 p r)).trans ?_
  exact (pay1_apply _ _ _).trans (congrArg (· + _) (pay3_apply _))

/-- At a middle point it ends at what the point before left plus the tile's product. -/
theorem step_middle (c : Dev nD) (t : Fin cfg0.N) (h0 : ¬t.val % 86 = 0) (h1 : ¬t.val % 86 = 85) (p : Fin 128) (r : Fin 4096) :
    (outsAt0 m c t.val t.isLt).2 (ix2 p r)
      = (outsAt0 m c (t.val - 1) (Nat.lt_of_le_of_lt (Nat.sub_le _ _) t.isLt)).2 (ix2 p r)
        + k0_pay4 (F := Ideal) (iblk m c 0 t) (iblk m c 1 t) (iblk m c 3 t) (iblk m c 2 t) (iblk m c 4 t) (iblk m c 5 t) (ix2 p r) := by
  rw [outsAt0_B m c t h0 h1]
  dsimp only
  refine (congrFun (Pieces.acc_middle c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2) (ix2 p r)).trans ?_
  exact pay1_apply _ _ _

/-- At a row block's last point likewise, -/
theorem step_last (c : Dev nD) (t : Fin cfg0.N) (h0 : ¬t.val % 86 = 0) (h1 : t.val % 86 = 85) (p : Fin 128) (r : Fin 4096) :
    (outsAt0 m c t.val t.isLt).2 (ix2 p r)
      = (outsAt0 m c (t.val - 1) (Nat.lt_of_le_of_lt (Nat.sub_le _ _) t.isLt)).2 (ix2 p r)
        + k0_pay4 (F := Ideal) (iblk m c 0 t) (iblk m c 1 t) (iblk m c 3 t) (iblk m c 2 t) (iblk m c 4 t) (iblk m c 5 t) (ix2 p r) := by
  rw [outsAt0_C m c t h0 h1]
  dsimp only
  refine (congrFun (Pieces.acc_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2) (ix2 p r)).trans ?_
  exact pay1_apply _ _ _

/-- and the output's staging buffer receives that value times the output channel's scale. -/
theorem step_out (c : Dev nD) (t : Fin cfg0.N) (h0 : ¬t.val % 86 = 0) (h1 : t.val % 86 = 85) (p : Fin 128) (r : Fin 4096) :
    (outsAt0 m c t.val t.isLt).1 (ix2 p r)
      = ((outsAt0 m c (t.val - 1) (Nat.lt_of_le_of_lt (Nat.sub_le _ _) t.isLt)).2 (ix2 p r)
        + k0_pay4 (F := Ideal) (iblk m c 0 t) (iblk m c 1 t) (iblk m c 3 t) (iblk m c 2 t) (iblk m c 4 t) (iblk m c 5 t) (ix2 p r)) * Sdf m c r := by
  rw [outsAt0_C m c t h0 h1]
  dsimp only
  refine (congrFun (Pieces.out_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2) (ix2 p r)).trans ?_
  refine (pay2_apply _ _ p r).trans ?_
  rw [pay1_apply]
  exact congrArg (_ * ·) (Blocks.blk6 m c t (0 : Fin 1) r)

/-! ## The invariant -/

/-- After point `n` the accumulator's entry (p, r) is the running value, after block `n % 86`, of the terms of output
    row `128 * (n / 86) + p`, channel `r`. -/
theorem acc_inv (c : Dev nD) : ∀ (n : ℕ) (h : n < cfg0.N) (p : Fin 128) (r : Fin 4096) (a : Fin 2048),
    a.val = 128 * (n / 86) + p.val → (outsAt0 m c n h).2 (ix2 p r) = accum (fterm m c a r) (n % 86)
  | 0, h, p, r, a, ha => by
    refine (step_first m c ⟨0, h⟩ rfl (show ¬(0 % 86 = 85) by decide) p r).trans ?_
    rw [tile_eq_block m c ⟨0, h⟩ p r a ha 0 rfl]
    rfl
  | n + 1, h, p, r, a, ha => by
    have hN : n + 1 < 1376 := lt_of_lt_of_eq h N_0
    by_cases h0 : (n + 1) % 86 = 0
    · have h1 : ¬(n + 1) % 86 = 85 := by omega
      refine (step_first m c ⟨n + 1, h⟩ h0 h1 p r).trans ?_
      rw [tile_eq_block m c ⟨n + 1, h⟩ p r a ha 0 h0, h0]
      rfl
    · have ha' : a.val = 128 * (n / 86) + p.val := by rw [ha]; omega
      have hm : (n + 1) % 86 = n % 86 + 1 := by omega
      have ih := acc_inv c n (Nat.lt_of_succ_lt h) p r a ha'
      by_cases h1 : (n + 1) % 86 = 85
      · refine (step_last m c ⟨n + 1, h⟩ h0 h1 p r).trans ?_
        rw [tile_eq_block m c ⟨n + 1, h⟩ p r a ha (n % 86 + 1) hm, hm, accum_succ]
        exact congrArg (· + _) ih
      · refine (step_middle m c ⟨n + 1, h⟩ h0 h1 p r).trans ?_
        rw [tile_eq_block m c ⟨n + 1, h⟩ p r a ha (n % 86 + 1) hm, hm, accum_succ]
        exact congrArg (· + _) ih

/-- What the output's staging buffer holds after a row block's last point: the block's output. -/
theorem out_at_last (c : Dev nD) (t : Fin cfg0.N) (h1 : t.val % 86 = 85) (p : Fin 128) (r : Fin 4096) (a : Fin 2048)
    (ha : a.val = 128 * (t.val / 86) + p.val) :
    (outsAt0 m c t.val t.isLt).1 (ix2 p r)
      = out2 (Xf m c) (Wgf m c) (Sgf m c) (Wuf m c) (Suf m c) (Wdf m c) (Sdf m c) a r := by
  have hN : t.val < 1376 := lt_of_lt_of_eq t.isLt N_0
  have h0 : ¬t.val % 86 = 0 := by omega
  have hpos : 0 < t.val := by omega
  have ha' : a.val = 128 * ((t.val - 1) / 86) + p.val := by rw [ha]; omega
  have hm : (t.val - 1) % 86 = 84 := by omega
  refine (step_out m c t h0 h1 p r).trans ?_
  rw [acc_inv m c (t.val - 1) (Nat.lt_of_le_of_lt (Nat.sub_le _ _) t.isLt) p r a ha', hm,
    tile_eq_block m c t p r a ha 85 h1, ← accum_succ, accum_last]
  rfl

end Cert.KernelIdeal.Acc

end
-- ==== Proof.KernelValue.lean ====
/-
  The kernel's result array. The output window is written back only at the last point of each block of 128 token rows,
  and what that point writes is the block's output: rows 128 * (t / 86) .. of the specification's function. The sixteen
  blocks tile the 2048 x 4096 array, so after the run the array holds the specification's function everywhere; the one
  host operation after the region re-lays it to 2 x 1024 x 4096.
-/
import proofs.«145805_j59072980189198_1_alg».proof.Proof.KernelAcc
import Idealize.ShloMosaic.Lib.Pipeline.Value
import Idealize.ShloMosaic.Lib.StableHlo.Run
import Idealize.ShloMosaic.Lib.Tactic

noncomputable section

namespace Cert.KernelIdeal.Result

open Cert.KernelIdeal Cert.KernelIdeal.Gen Idealize.ShloMosaic Idealize.ShloMosaic.ValueIdx Idealize.ShloMosaic.TcCoe Idealize.SL.Sem
open Idealize.ShloMosaic.Pipeline (Dat)
open Cert.Spec

variable (m : (ℓ : Loc nD τ sig) → Buf (Elt Ideal) ℓ) (ρ : Dev nD → PrngReg)

/-- The specification's function of the argument arrays as core `c` holds them at launch. -/
def G7 (c : Dev nD) : S2048x4096.Idx → EReal :=
  Spec.G (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) shapeCasts_S2x1024x4096_S2048x4096

theorem G7_apply (c : Dev nD) (a : Fin 2048) (r : Fin 4096) :
    G7 m c (ix2 a r) = out2 (Acc.Xf m c) (Acc.Wgf m c) (Acc.Sgf m c) (Acc.Wuf m c) (Acc.Suf m c) (Acc.Wdf m c) (Acc.Sdf m c) a r := rfl

/-- What a flushing point writes back is its block of the specification's function. -/
theorem flushed_eq (c : Dev nD) (t : Fin cfg0.N) (hf : (cfg0.win 7).flush t = true) :
    (dats m 0 c).flushed 7 t = ((cfg0.win 7).blk t).view.read (Elt Ideal) (G7 m c) := by
  have h85 : t.val % 86 = 85 := (flush0_7 t).mp hf
  have hN : t.val < 1376 := lt_of_lt_of_eq t.isLt N_0
  obtain ⟨e0, e1⟩ := Blocks.idx7 t
  show (cfg0.win 7).cut (grid0.coords t) ((dats m 0 c).after 7 t) = _
  rw [after0_7]
  funext y
  obtain ⟨p, r, rfl⟩ : ∃ (p : Fin 128) (r : Fin 4096), y = ix2 p r := ⟨y 0, y 1, eq_ix2 y⟩
  have ha : 128 * (t.val / 86) + p.val < 2048 := by have := p.isLt; omega
  rw [View.read_apply]
  show (outsAt0 m c t.val t.isLt).1 (ix2 p r) = G7 m c (((cfg0.win 7).blk t).view.emb (ix2 p r))
  have hemb : ((cfg0.win 7).blk t).view.emb (ix2 p r) = ix2 (⟨128 * (t.val / 86) + p.val, ha⟩ : Fin 2048) r :=
    funext fun b => Fin.ext (by
      match b with
      | ⟨0, _⟩ => show win0_7.index t (0 : Fin 2) * 128 + 1 * p.val = 128 * (t.val / 86) + p.val; rw [e0]; omega
      | ⟨1, _⟩ => show win0_7.index t (1 : Fin 2) * 4096 + 1 * r.val = r.val; rw [e1]; omega)
  refine (Acc.out_at_last m c t h85 p r ⟨128 * (t.val / 86) + p.val, ha⟩ rfl).trans ?_
  exact (congrArg (G7 m c) hemb).symm

/-- An index of the array is in point `t`'s block iff each coordinate is in the block's range on its axis. -/
theorem mem_blk (t : Fin cfg0.N) (i : S2048x4096.Idx) :
    i ∈ ((cfg0.win 7).blk t).view.set ↔ ∀ a : Fin 2, win0_7.index t a * S128x4096.size a ≤ (i a).val ∧ (i a).val < win0_7.index t a * S128x4096.size a + S128x4096.size a := by
  show i ∈ ((View.whole main_v4).slice (win0_7.rect t)).set ↔ _
  rw [View.set_slice_whole, Rect.mem_set_unit]
  exact Iff.rfl

/-- Every index of the array is in the block of the last point of its row block. -/
theorem cover (i : S2048x4096.Idx) : ∃ t : Fin cfg0.N, (cfg0.win 7).flush t = true ∧ i ∈ ((cfg0.win 7).blk t).view.set := by
  have h0 : (i 0).val < 2048 := (i 0).isLt
  have h1 : (i 1).val < 4096 := (i 1).isLt
  have hlt : 86 * ((i 0).val / 128) + 85 < cfg0.N := lt_of_lt_of_eq (by omega : 86 * ((i 0).val / 128) + 85 < 1376) N_0.symm
  refine ⟨⟨86 * ((i 0).val / 128) + 85, hlt⟩, (flush0_7 _).mpr (by show (86 * ((i 0).val / 128) + 85) % 86 = 85; omega), ?_⟩
  obtain ⟨e0, e1⟩ := Blocks.idx7 ⟨86 * ((i 0).val / 128) + 85, hlt⟩
  have e0' : win0_7.index ⟨86 * ((i 0).val / 128) + 85, hlt⟩ (0 : Fin 2) = (86 * ((i 0).val / 128) + 85) / 86 := e0
  rw [mem_blk]
  intro a
  match a with
  | ⟨0, _⟩ =>
    show win0_7.index ⟨86 * ((i 0).val / 128) + 85, hlt⟩ (0 : Fin 2) * 128 ≤ (i 0).val ∧ (i 0).val < win0_7.index ⟨86 * ((i 0).val / 128) + 85, hlt⟩ (0 : Fin 2) * 128 + 128
    rw [e0']; omega
  | ⟨1, _⟩ =>
    show win0_7.index ⟨86 * ((i 0).val / 128) + 85, hlt⟩ (1 : Fin 2) * 4096 ≤ (i 1).val ∧ (i 1).val < win0_7.index ⟨86 * ((i 0).val / 128) + 85, hlt⟩ (1 : Fin 2) * 4096 + 4096
    rw [e1]; omega

/-- The region's output array after the run is the specification's function. -/
theorem final (c : Dev nD) : (dats m 0 c).arrAt 7 cfg0.N = G7 m c :=
  (dats m 0 c).arrAt_eq_of_cover 7 (G7 m c) (fun t hf => flushed_eq m c t hf) cover

/-- The result after the host's last operation: that array re-laid to 2 x 1024 x 4096. -/
theorem tail_eq (c : Dev nD) :
    Pipeline.afterTail₀ cfgs (dats m) 0 (V0 m) [hostOps1] c main_v5
      = shapeCast S2x1024x4096 (G7 m c) shapeCasts_S2048x4096_S2x1024x4096 := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v4)
      = G7 m c :=
    (Pipeline.withArrays_arr spec0 launch0.win.arr_inj c _ _ 7).trans (final m c)
  rw [e]
  rfl

/-- The run, read: the result at the specification's function re-laid, every argument array unchanged. -/
theorem run : θ_run defs (onTc (τ := τ) (main (F := Ideal))) ⟨m, fun _ => 0, ρ⟩ fun r => ∀ c : Dev nD,
      r.2.mem ((c.tc : Thread nD τ).loc main_v5) = shapeCast S2x1024x4096 (G7 m c) shapeCasts_S2048x4096_S2x1024x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c)⟩)
    (run_main m ρ)

end Cert.KernelIdeal.Result

end
-- ==== Proof.RefValue.lean ====
/-
  The reference, read at an index over the extended reals, is the specification. Stage by stage: the input's two
  leading axes are merged by the same shape cast the specification keeps; an integer array converted to float reads
  each word signed; each of the three contractions is a plain sum over the contracted axis; a scale vector repeated
  over the rows reads its entry at the column; the outlined gate is g * (1 / (1 + exp (-g))), and -g = 0 - g; so the
  array before the last re-laying is the specification's function, entry by entry.
-/
import proofs.«145805_j59072980189198_1_alg».proof.Proof.Gen.ReferenceIdeal.Read
import proofs.«145805_j59072980189198_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-! ## The composed index maps of the stages, at coordinates -/

theorem lidx2 (t : Fin 2048) (j : Fin 11008) (k : Fin 4096) : lidx_main_v2 (ix2 t j) k = ix2 t k :=
  funext fun a => by match a with | ⟨0, _⟩ => rfl | ⟨1, _⟩ => rfl
theorem ridx2 (t : Fin 2048) (j : Fin 11008) (k : Fin 4096) : ridx_main_v2 (ix2 t j) k = ix2 j k :=
  funext fun a => by match a with | ⟨0, _⟩ => rfl | ⟨1, _⟩ => rfl
theorem lidx7 (t : Fin 2048) (j : Fin 11008) (k : Fin 4096) : lidx_main_v7 (ix2 t j) k = ix2 t k :=
  funext fun a => by match a with | ⟨0, _⟩ => rfl | ⟨1, _⟩ => rfl
theorem ridx7 (t : Fin 2048) (j : Fin 11008) (k : Fin 4096) : ridx_main_v7 (ix2 t j) k = ix2 j k :=
  funext fun a => by match a with | ⟨0, _⟩ => rfl | ⟨1, _⟩ => rfl
theorem lidx14 (t : Fin 2048) (r : Fin 4096) (j : Fin 11008) : lidx_main_v14 (ix2 t r) j = ix2 t j :=
  funext fun a => by match a with | ⟨0, _⟩ => rfl | ⟨1, _⟩ => rfl
theorem ridx14 (t : Fin 2048) (r : Fin 4096) (j : Fin 11008) : ridx_main_v14 (ix2 t r) j = ix2 r j :=
  funext fun a => by match a with | ⟨0, _⟩ => rfl | ⟨1, _⟩ => rfl
theorem sidx4 (t : Fin 2048) (j : Fin 11008) : idx_main_v3 (idx_main_v4 (ix2 t j)) = ix1 j :=
  funext fun a => by match a with | ⟨0, _⟩ => rfl
theorem sidx9 (t : Fin 2048) (j : Fin 11008) : idx_main_v8 (idx_main_v9 (ix2 t j)) = ix1 j :=
  funext fun a => by match a with | ⟨0, _⟩ => rfl
theorem sidx16 (t : Fin 2048) (r : Fin 4096) : idx_main_v15 (idx_main_v16 (ix2 t r)) = ix1 r :=
  funext fun a => by match a with | ⟨0, _⟩ => rfl

/-! ## The stages at coordinates -/

/-- The gate projection with its scale. -/
theorem gate_apply (x0 : (⟨S2x1024x4096, .f32⟩ : BufTy).Contents (Elt Ideal)) (x1 : (⟨S11008x4096, .i32⟩ : BufTy).Contents (Elt Ideal)) (x2 : (⟨S11008, .f32⟩ : BufTy).Contents (Elt Ideal)) (x3 : (⟨S11008x4096, .i32⟩ : BufTy).Contents (Elt Ideal)) (x4 : (⟨S11008, .f32⟩ : BufTy).Contents (Elt Ideal)) (x5 : (⟨S4096x11008, .i32⟩ : BufTy).Contents (Elt Ideal)) (x6 : (⟨S4096, .f32⟩ : BufTy).Contents (Elt Ideal)) (t : Fin 2048) (j : Fin 11008) :
    val_main_v5 (F := Ideal) x0 x1 x2 (ix2 t j) = Spec.proj (fun t k => shapeCast Spec.SXt x0 shapeCasts_S2x1024x4096_S2048x4096 (ix2 t k)) (fun j k => Spec.cv (x1 (ix2 j k))) (fun j => x2 (ix1 j)) t j := by
  show val_main_v2 (F := Ideal) x0 x1 (ix2 t j) * val_main_v4 (F := Ideal) x2 (ix2 t j) = _
  rw [val_main_v2_apply, val_main_v4_apply, val_main_v3_apply, sidx4]
  unfold Spec.proj
  refine congrArg (· * x2 (ix1 j)) (Finset.sum_congr rfl fun k _ => ?_)
  rw [lidx2, ridx2]
  rfl

/-- The up projection with its scale. -/
theorem up_apply (x0 : (⟨S2x1024x4096, .f32⟩ : BufTy).Contents (Elt Ideal)) (x1 : (⟨S11008x4096, .i32⟩ : BufTy).Contents (Elt Ideal)) (x2 : (⟨S11008, .f32⟩ : BufTy).Contents (Elt Ideal)) (x3 : (⟨S11008x4096, .i32⟩ : BufTy).Contents (Elt Ideal)) (x4 : (⟨S11008, .f32⟩ : BufTy).Contents (Elt Ideal)) (x5 : (⟨S4096x11008, .i32⟩ : BufTy).Contents (Elt Ideal)) (x6 : (⟨S4096, .f32⟩ : BufTy).Contents (Elt Ideal)) (t : Fin 2048) (j : Fin 11008) :
    val_main_v10 (F := Ideal) x0 x3 x4 (ix2 t j) = Spec.proj (fun t k => shapeCast Spec.SXt x0 shapeCasts_S2x1024x4096_S2048x4096 (ix2 t k)) (fun j k => Spec.cv (x3 (ix2 j k))) (fun j => x4 (ix1 j)) t j := by
  show val_main_v7 (F := Ideal) x0 x3 (ix2 t j) * val_main_v9 (F := Ideal) x4 (ix2 t j) = _
  rw [val_main_v7_apply, val_main_v9_apply, val_main_v8_apply, sidx9]
  unfold Spec.proj
  refine congrArg (· * x4 (ix1 j)) (Finset.sum_congr rfl fun k _ => ?_)
  rw [lidx7, ridx7]
  rfl

/-- The hidden activation. -/
theorem hid_apply (x0 : (⟨S2x1024x4096, .f32⟩ : BufTy).Contents (Elt Ideal)) (x1 : (⟨S11008x4096, .i32⟩ : BufTy).Contents (Elt Ideal)) (x2 : (⟨S11008, .f32⟩ : BufTy).Contents (Elt Ideal)) (x3 : (⟨S11008x4096, .i32⟩ : BufTy).Contents (Elt Ideal)) (x4 : (⟨S11008, .f32⟩ : BufTy).Contents (Elt Ideal)) (x5 : (⟨S4096x11008, .i32⟩ : BufTy).Contents (Elt Ideal)) (x6 : (⟨S4096, .f32⟩ : BufTy).Contents (Elt Ideal)) (t : Fin 2048) (j : Fin 11008) :
    val_main_v12 (F := Ideal) x0 x1 x2 x3 x4 (ix2 t j)
      = Spec.hid (fun t k => shapeCast Spec.SXt x0 shapeCasts_S2x1024x4096_S2048x4096 (ix2 t k)) (fun j k => Spec.cv (x1 (ix2 j k))) (fun j => x2 (ix1 j)) (fun j k => Spec.cv (x3 (ix2 j k))) (fun j => x4 (ix1 j)) t j := by
  show (val_main_v5 (F := Ideal) x0 x1 x2 (ix2 t j)
      * Ideal.div (val_main_call0_v4 (F := Ideal) (ix2 t j))
          (val_main_call0_v2 (F := Ideal) (ix2 t j) + Ideal.exp (-(val_main_v5 (F := Ideal) x0 x1 x2 (ix2 t j)))))
      * val_main_v10 (F := Ideal) x0 x3 x4 (ix2 t j) = _
  rw [val_main_call0_v4_apply, val_main_call0_v2_apply, gate_apply x0 x1 x2 x3 x4 x5 x6, up_apply x0 x1 x2 x3 x4 x5 x6]
  unfold Spec.hid Spec.act
  rw [Ideal.ofBits_zero_f32, zero_sub]
  rfl

/-- The array before the last re-laying is the specification's function. -/
theorem v17_eq (x0 : (⟨S2x1024x4096, .f32⟩ : BufTy).Contents (Elt Ideal)) (x1 : (⟨S11008x4096, .i32⟩ : BufTy).Contents (Elt Ideal)) (x2 : (⟨S11008, .f32⟩ : BufTy).Contents (Elt Ideal)) (x3 : (⟨S11008x4096, .i32⟩ : BufTy).Contents (Elt Ideal)) (x4 : (⟨S11008, .f32⟩ : BufTy).Contents (Elt Ideal)) (x5 : (⟨S4096x11008, .i32⟩ : BufTy).Contents (Elt Ideal)) (x6 : (⟨S4096, .f32⟩ : BufTy).Contents (Elt Ideal)) :
    val_main_v17 (F := Ideal) x0 x1 x2 x3 x4 x5 x6 = Spec.G x0 x1 x2 x3 x4 x5 x6 shapeCasts_S2x1024x4096_S2048x4096 := by
  funext i
  obtain ⟨t, r, rfl⟩ : ∃ (t : Fin 2048) (r : Fin 4096), i = ix2 t r := ⟨i 0, i 1, eq_ix2 i⟩
  show val_main_v14 (F := Ideal) x0 x1 x2 x3 x4 x5 (ix2 t r) * val_main_v16 (F := Ideal) x6 (ix2 t r)
    = Spec.out2 (fun t k => shapeCast Spec.SXt x0 shapeCasts_S2x1024x4096_S2048x4096 (ix2 t k)) (fun j k => Spec.cv (x1 (ix2 j k))) (fun j => x2 (ix1 j)) (fun j k => Spec.cv (x3 (ix2 j k))) (fun j => x4 (ix1 j)) (fun r j => Spec.cv (x5 (ix2 r j))) (fun r => x6 (ix1 r)) t r
  rw [val_main_v14_apply, val_main_v16_apply, val_main_v15_apply, sidx16]
  unfold Spec.out2
  refine congrArg (· * x6 (ix1 r)) (Finset.sum_congr rfl fun j _ => ?_)
  rw [lidx14, ridx14, hid_apply x0 x1 x2 x3 x4 x5 x6]
  rfl

/-- The reference's result, as its run states it, is the specification's function re-laid to 2 x 1024 x 4096. -/
theorem v18_eq (x0 : (⟨S2x1024x4096, .f32⟩ : BufTy).Contents (Elt Ideal)) (x1 : (⟨S11008x4096, .i32⟩ : BufTy).Contents (Elt Ideal)) (x2 : (⟨S11008, .f32⟩ : BufTy).Contents (Elt Ideal)) (x3 : (⟨S11008x4096, .i32⟩ : BufTy).Contents (Elt Ideal)) (x4 : (⟨S11008, .f32⟩ : BufTy).Contents (Elt Ideal)) (x5 : (⟨S4096x11008, .i32⟩ : BufTy).Contents (Elt Ideal)) (x6 : (⟨S4096, .f32⟩ : BufTy).Contents (Elt Ideal)) :
    val_main_v18 (F := Ideal) x0 x1 x2 x3 x4 x5 x6
      = shapeCast S2x1024x4096 (Spec.G x0 x1 x2 x3 x4 x5 x6 shapeCasts_S2x1024x4096_S2048x4096) shapeCasts_S2048x4096_S2x1024x4096 := by
  unfold val_main_v18
  rw [v17_eq]

end Cert.ReferenceIdeal.RefValue

end
-- ==== Proof.lean ====
/-
  A gated feed-forward block with integer weights and per-channel scales, fused into one tiled kernel, against its
  plain reference, over the extended reals.

  Both programs compute, for a token row t, hidden channels j and output channels r,
      g = (x . wg_j) * sg_j,   u = (x . wu_j) * su_j,   h_j = (g * (1 / (1 + exp (0 - g)))) * u,
      out(t, r) = (sum over the 11008 hidden channels j of h_j * wd(r, j)) * sd_r,
  on the input's 2 x 1024 rows merged to 2048 and re-laid to 2 x 1024 x 4096 at the end (Proof/Spec.lean).

  The reference does this with three whole contractions. The kernel walks a 16 x 86 grid: 128 token rows at a time,
  and for each of them the hidden channels 128 at a time, adding each tile's part of the down projection into an
  accumulator that starts at zero, and scaling and writing the block out after the last tile. The two agree because
    * a change of float format is the identity on the extended reals, and an integer word converted to float is the
      integer, in the tile as in the whole array;
    * a matrix product into a zero accumulator is the plain sum over the contracted axis (Proof/KernelTile.lean);
    * the blocks the body is handed are the arrays' rows and columns at 128 * (block index) + offset
      (Proof/KernelBlocks.lean), so a tile's product is one block of 128 of the row's 11008 terms;
    * zero plus the 86 blocks' sums, added one after the other, is the sum of all 11008 terms: addition of extended
      reals is associative and commutative, so no finiteness of the inputs is needed (Proof/LibBlockSum.lean,
      Proof/Accum.lean; the induction over grid points is Proof/KernelAcc.lean);
    * the sixteen written-back blocks tile the output (Proof/KernelValue.lean);
    * the reference's negation is 0 - g (Proof/RefValue.lean).
  The idealization rewrote nothing, so it is preserved trivially; the three frames are the generated runs.
-/
import proofs.«145805_j59072980189198_1_alg».proof.Defs
import proofs.«145805_j59072980189198_1_alg».proof.Proof.Gen.Kernel
import proofs.«145805_j59072980189198_1_alg».proof.Proof.Gen.Kernel.Skeleton
import proofs.«145805_j59072980189198_1_alg».proof.Proof.Gen.Kernel.Launch
import proofs.«145805_j59072980189198_1_alg».proof.Proof.Gen.Kernel.Points
import proofs.«145805_j59072980189198_1_alg».proof.Proof.Gen.Kernel.Frame
import proofs.«145805_j59072980189198_1_alg».proof.Proof.Gen.KernelIdeal
import proofs.«145805_j59072980189198_1_alg».proof.Proof.Gen.KernelIdeal.Skeleton
import proofs.«145805_j59072980189198_1_alg».proof.Proof.Gen.KernelIdeal.Launch
import proofs.«145805_j59072980189198_1_alg».proof.Proof.Gen.KernelIdeal.Points
import proofs.«145805_j59072980189198_1_alg».proof.Proof.Gen.KernelIdeal.Frame
import proofs.«145805_j59072980189198_1_alg».proof.Proof.Gen.ReferenceIdeal
import proofs.«145805_j59072980189198_1_alg».proof.Proof.Gen.ReferenceIdeal.Run
import proofs.«145805_j59072980189198_1_alg».proof.Proof.Gen.ReferenceIdeal.Read
import proofs.«145805_j59072980189198_1_alg».proof.Proof.Gen.Pre_finite_inputs
import proofs.«145805_j59072980189198_1_alg».proof.Proof.KernelValue
import proofs.«145805_j59072980189198_1_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- Over the extended reals the kernel's result and the reference's are the specification's function of arguments that
    agree, re-laid to 2 x 1024 x 4096. -/
theorem algebraic : Cert.algebraic_KernelIdeal_ReferenceIdeal := by
  intro m ρ m' ρ' _ hagree
  refine ⟨fun c => shapeCast Cert.KernelIdeal.S2x1024x4096 (Cert.KernelIdeal.Result.G7 m c)
    Cert.KernelIdeal.Gen.shapeCasts_S2048x4096_S2x1024x4096, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.v18_eq]
  obtain ⟨a0, a1, a2, a3, a4, a5, a6⟩ := hagree c
  rw [a0, a1, a2, a3, a4, a5, a6]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
